-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x512 : Shape := ⟨2, ![512, 512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S100000x512 .f32) (main_arg1 : FVec F S512x512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S100000x512 : Shape := ⟨2, ![100000, 512]⟩
abbrev S512x512 : Shape := ⟨2, ![512, 512]⟩
abbrev S_ : Shape := ⟨0, ![]⟩
abbrev S512 : Shape := ⟨1, ![512]⟩
abbrev S1x512 : Shape := ⟨2, ![1, 512]⟩
abbrev S4000x512 : Shape := ⟨2, ![4000, 512]⟩
abbrev S4000 : Shape := ⟨1, ![4000]⟩
abbrev S4000x1 : Shape := ⟨2, ![4000, 1]⟩

abbrev nBuf : Space → Nat
  | .hbm => 15
  | .vmem => 6
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S512x512, .f32⟩
  | .hbm, ⟨14, _⟩ => ⟨S100000x512, .f32⟩
  | .local _ .vmem, ⟨0, _⟩ => ⟨S4000x512, .f32⟩
  | .local _ .vmem, ⟨1, _⟩ => ⟨S4000x512, .f32⟩
  | .local _ .vmem, ⟨2, _⟩ => ⟨S512x512, .f32⟩
  | .local _ .vmem, ⟨3, _⟩ => ⟨S1x512, .f32⟩
  | .local _ .vmem, ⟨4, _⟩ => ⟨S4000x512, .f32⟩
  | .local _ .vmem, ⟨5, _⟩ => ⟨S4000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S_S512 : S_.BroadcastsInDim S512 (![] : Fin 0 → Fin S512.rank)
  shapeCasts_S512_S1x512 : S512.ShapeCasts S1x512
  transposes_S512x512_S512x512_1_0 : S512x512.Transposes [1, 0] S512x512
  inb_S4000x512_S4000x512_0_0 : ∀ a, (![0, 0] : Fin 2 → Nat) a + S4000x512.size a ≤ S4000x512.size a
  h_S4000x512 : 0 < S4000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S4000x512_S4000 : S4000x512.Reduces [1] S4000
  shapeCasts_S4000_S4000x1 : S4000.ShapeCasts S4000x1
  broadcasts_S4000x1_S4000x512 : S4000x1.Broadcasts S4000x512
  broadcasts_S1x512_S4000x512 : S1x512.Broadcasts S4000x512
  dot_S4000x512_S512x512_S4000x512_1_0_0_1_n_n_wf : DotDims.WF S4000x512 S512x512 S4000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x512.size a ≤ S100000x512.size a
  hwx0_3 : ∀ i : grid0.Coords, EltTy.bits .f32 = 32 ∨ (Rect.block (s := S100000x512) S4000x512.size (cc0_transform_3 i) (hinb0_3 i)).WholeWords (EltTy.packing .f32)

variable [Facts₀]

def dot_S4000x512_S512x512_S4000x512_1_0_0_1_n_n : DotDims S4000x512 S512x512 S4000x512 where
  lhsContracting := [1]
  rhsContracting := [0]
  lhsNonContracting := [0]
  rhsNonContracting := [1]
  lhsBatch := []
  rhsBatch := []
  wf := dot_S4000x512_S512x512_S4000x512_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x512 : Shape := ⟨2, ![512, 512]⟩
abbrev S_ : Shape := ⟨0, ![]⟩
abbrev S100000 : Shape := ⟨1, ![100000]⟩
abbrev S100000x1 : Shape := ⟨2, ![100000, 1]⟩
abbrev S512 : Shape := ⟨1, ![512]⟩
abbrev S512x1 : Shape := ⟨2, ![512, 1]⟩

abbrev nBuf : Space → Nat
  | .hbm => 29
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S100000x512, .f32⟩
  | .hbm, ⟨3, _⟩ => ⟨S100000x512, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S100000x1, .f32⟩
  | .hbm, ⟨8, _⟩ => ⟨S_, .f32⟩
  | .hbm, ⟨9, _⟩ => ⟨S100000x1, .f32⟩
  | .hbm, ⟨10, _⟩ => ⟨S100000x1, .f32⟩
  | .hbm, ⟨11, _⟩ => ⟨S100000x512, .f32⟩
  | .hbm, ⟨12, _⟩ => ⟨S100000x512, .f32⟩
  | .hbm, ⟨13, _⟩ => ⟨S512x512, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x512, .f32⟩
  | .hbm, ⟨22, _⟩ => ⟨S512x512, .f32⟩
  | .hbm, ⟨23, _⟩ => ⟨S100000x512, .f32⟩
  | .hbm, ⟨24, _⟩ => ⟨S100000x512, .f32⟩
  | .hbm, ⟨25, _⟩ => ⟨S_, .f32⟩
  | .hbm, ⟨26, _⟩ => ⟨S100000x512, .f32⟩
  | .hbm, ⟨27, _⟩ => ⟨S100000x512, .f32⟩
  | .hbm, ⟨28, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  reducesTo_S512x512_S512_d1 : S512x512.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S_S100000x512 : S_.BroadcastsInDim S100000x512 (![] : Fin 0 → Fin S100000x512.rank)
  dot_S100000x512_S512x512_S100000x512_1_1_0_0_n_n_wf : DotDims.WF S100000x512 S512x512 S100000x512 [1] [1] [0] [0] [] []

variable [Facts₀]

def dot_S100000x512_S512x512_S100000x512_1_1_0_0_n_n : DotDims S100000x512 S512x512 S100000x512 where
  lhsContracting := [1]
  rhsContracting := [1]
  lhsNonContracting := [0]
  rhsNonContracting := [0]
  lhsBatch := []
  rhsBatch := []
  wf := dot_S100000x512_S512x512_S100000x512_1_1_0_0_n_n_wf

class Facts : Prop extends Facts₀ where

variable [Facts]
-- ==== Proof.Consts.lean ====
/-
  The three float words the two programs spell, as the extended reals they denote: the zero word is 0 (a library
  fact), the word of 1.0 is the real 1, and the clamp word — the f32 nearest to 1e-12 — is the positive real
  9223372 · 2⁻⁶³. Only the clamp's sign matters below: a length clamped from below by it is a positive real.
-/
import Idealize.ShloMosaic.PureOps.Ideal
import Idealize.ShloMosaic.PureOps.Ideal.Laws

noncomputable section

namespace Cert.CosScale

open Idealize.ShloMosaic

/-- The word of 1.0 denotes the real 1. -/
theorem ofBits_one : Ideal.ofBits .f32 0x3F800000#32 = ((1 : ℝ) : EReal) := by
  simp [Ideal.ofBits, Ideal.ieee, -EReal.coe_mul]
  norm_num

/-- The clamp word denotes 9223372 · 2⁻⁶³: sign 0, exponent field 87, fraction field 834764. -/
theorem ofBits_clamp : Ideal.ofBits .f32 0x2B8CBCCC#32 = ((9223372 * (2 : ℝ) ^ (-63 : ℤ) : ℝ) : EReal) := by
  simp [Ideal.ofBits, Ideal.ieee, -EReal.coe_mul]

/-- The clamp is a positive real. -/
theorem clamp_pos : ∃ e : ℝ, 0 < e ∧ Ideal.ofBits .f32 0x2B8CBCCC#32 = (e : EReal) :=
  ⟨_, by positivity, ofBits_clamp⟩

end Cert.CosScale

end
-- ==== Proof.CosineLaw.lean ====
/-
  The law that joins the two programs, for one row x of the first matrix and one row y of the second, on the
  extended reals. Write L = Σ_k x_k·y_k for the rows' product, and a = max(√(0 + Σ_k x_k²), ε), b likewise of y, for
  the rows' lengths clamped from below by ε. One program computes the cosine from the product,
      L · ((|L| · (1/a)) · (1/b)),
  the other normalizes the rows first, takes their product, and raises its magnitude to the power 1,
      L · |Σ_k (x_k/a)·(y_k/b)| ^ 1.
  When every x_k and y_k is a real number, a and b are POSITIVE reals (the clamp ε is), so dividing by them is
  multiplying by the real 1/a, 1/b, these factors leave the sum, |·| of the product with a positive number is the
  product with it, and t ^ 1 = t. At an infinite entry the factor could not leave the sum: finiteness is used.
-/
import Idealize.ShloMosaic.PureOps.Ideal
import Idealize.ShloMosaic.PureOps.Ideal.Laws
import proofs.«137916_j36429912604727_2_alg».proof.Proof.Consts

noncomputable section

open scoped BigOperators

namespace Cert.CosScale

open Idealize.ShloMosaic

variable {K : ℕ}

/-- The length of a row clamped from below: max(√(0 + Σ_k x_k²), ε). -/
def clen (x : Fin K → EReal) : EReal :=
  max (Ideal.sqrt (Ideal.ofBits .f32 0x00000000#32 + ∑ k : Fin K, x k * x k)) (Ideal.ofBits .f32 0x2B8CBCCC#32)

/-- The product of two rows. -/
def dotp (x y : Fin K → EReal) : EReal := ∑ k : Fin K, x k * y k

/-- The product scaled by the magnitude of the cosine, the cosine taken from the product and the two reciprocal lengths. -/
def scaledK (x y : Fin K → EReal) : EReal :=
  dotp x y * ((max (dotp x y) (-(dotp x y)) * Ideal.div (Ideal.ofBits .f32 0x3F800000#32) (clen x))
    * Ideal.div (Ideal.ofBits .f32 0x3F800000#32) (clen y))

/-- The product scaled by the first power of the magnitude of the product of the normalized rows. -/
def scaledR (x y : Fin K → EReal) : EReal :=
  dotp x y * Ideal.pow
    (max (∑ k : Fin K, Ideal.div (x k) (clen x) * Ideal.div (y k) (clen y))
      (-(∑ k : Fin K, Ideal.div (x k) (clen x) * Ideal.div (y k) (clen y))))
    (Ideal.ofBits .f32 0x3F800000#32)

/-- A finite sum of reals, each read as an extended real, is the real sum read as one. -/
theorem coe_sum (f : Fin K → ℝ) : (∑ k : Fin K, ((f k : ℝ) : EReal)) = ((∑ k : Fin K, f k : ℝ) : EReal) := by
  refine Finset.induction_on (Finset.univ : Finset (Fin K)) (by simp) fun a s ha ih => ?_
  rw [Finset.sum_insert ha, Finset.sum_insert ha, ih, EReal.coe_add]

/-- The greater of two reals, read as an extended real, is the greater of the two read so. -/
theorem coe_max (u v : ℝ) : max (u : EReal) (v : EReal) = ((max u v : ℝ) : EReal) :=
  (EReal.coe_strictMono.monotone.map_max).symm

/-- The clamped length of a real row is a positive real. -/
theorem clen_real (xr : Fin K → ℝ) : ∃ a : ℝ, 0 < a ∧ clen (fun k => ((xr k : ℝ) : EReal)) = (a : EReal) := by
  obtain ⟨e, he, hee⟩ := clamp_pos
  refine ⟨max (Real.sqrt (∑ k : Fin K, xr k * xr k)) e, lt_max_of_lt_right he, ?_⟩
  unfold clen
  rw [Ideal.ofBits_zero_f32, zero_add, hee]
  simp only [← EReal.coe_mul]
  rw [coe_sum, Ideal.sqrt_coe, if_neg (not_lt.mpr (Finset.sum_nonneg fun k _ => mul_self_nonneg (xr k))), coe_max]

/-- THE LAW: on real rows the two forms are one extended real. -/
theorem scaledR_eq_scaledK (x y : Fin K → EReal) (hx : ∀ k, ∃ r : ℝ, x k = (r : EReal)) (hy : ∀ k, ∃ r : ℝ, y k = (r : EReal)) :
    scaledR x y = scaledK x y := by
  choose xr hxr using hx
  choose yr hyr using hy
  obtain rfl : x = fun k => ((xr k : ℝ) : EReal) := funext hxr
  obtain rfl : y = fun k => ((yr k : ℝ) : EReal) := funext hyr
  obtain ⟨a, ha, hca⟩ := clen_real xr
  obtain ⟨b, hb, hcb⟩ := clen_real yr
  unfold scaledR scaledK dotp
  rw [hca, hcb, ofBits_one]
  simp only [Ideal.div_coe (ne_of_gt ha), Ideal.div_coe (ne_of_gt hb), ← EReal.coe_mul]
  rw [coe_sum, coe_sum]
  simp only [← EReal.coe_neg, coe_max, Ideal.pow_coe_coe, Real.rpow_eq_pow, Real.rpow_one, ← EReal.coe_mul]
  refine congrArg (fun t : ℝ => (t : EReal)) ?_
  have hsum : (∑ k : Fin K, xr k * (1 / a) * (yr k * (1 / b))) = (∑ k : Fin K, xr k * yr k) * ((1 / a) * (1 / b)) := by
    rw [Finset.sum_mul]
    exact Finset.sum_congr rfl fun k _ => by ring
  have hpos : 0 < (1 / a) * (1 / b) := by positivity
  rw [hsum, ← abs_eq_max_neg, ← abs_eq_max_neg, abs_mul, abs_of_pos hpos]
  ring

end Cert.CosScale

end
-- ==== Proof.Spec.lean ====
/-
  The specification both programs meet. For z of shape [100000, 512] and w of shape [512, 512], entry (n, o) of the
  result is the law's kernel-side form of row n of z and row o of w: with L = Σ_k z[n,k]·w[o,k] and the two rows'
  clamped lengths a, b, it is L · ((|L| · (1/a)) · (1/b)).
-/
import Idealize.ShloMosaic.Lib.ValueIdx
import proofs.«137916_j36429912604727_2_alg».proof.Proof.CosineLaw

noncomputable section

namespace Cert.CosScale

open Idealize.ShloMosaic Idealize.ShloMosaic.ValueIdx

/-- Row `p` of a matrix. -/
def rowOf {M K : ℕ} (x : (⟨2, ![M, K]⟩ : Shape).Idx → EReal) (p : Fin M) : Fin K → EReal := fun k => x (ix2 p k)

/-- The result array as one function of the two argument arrays, entry by entry. -/
def spec (z : (⟨2, ![100000, 512]⟩ : Shape).Idx → EReal) (w : (⟨2, ![512, 512]⟩ : Shape).Idx → EReal) :
    (⟨2, ![100000, 512]⟩ : Shape).Idx → EReal :=
  fun i => scaledK (rowOf z (i 0)) (rowOf w (i 1))

end Cert.CosScale

end
-- ==== Proof.RefRead.lean ====
/-
  The reference, read at one entry. Its last stage at (n, o) is the product L of row n of z and row o of w times
  the first power of |Σ_k (z[n,k]/a)·(w[o,k]/b)|, a and b the rows' clamped lengths: the law's reference-side form.
  Every stage is read by its generated lemma; what is added is that the stages' composed index functions are the
  plain coordinates (n, k) and (o, k).
-/
import proofs.«137916_j36429912604727_2_alg».proof.Proof.Gen.ReferenceIdeal.Read
import proofs.«137916_j36429912604727_2_alg».proof.Proof.Spec

noncomputable section

open scoped BigOperators

namespace Cert.CosScale

open Cert.ReferenceIdeal Cert.ReferenceIdeal.Read Idealize.ShloMosaic Idealize.ShloMosaic.ValueIdx

/-- The left operand of either product is read at (n, k) … -/
theorem lidx0_eq (i : S100000x512.Idx) (k : Fin 512) : lidx_main_v0 i k = ix2 (n0 := 100000) (n1 := 512) (i 0) k :=
  funext fun a => Fin.ext (by match a with | ⟨0, _⟩ => rfl | ⟨1, _⟩ => rfl)
theorem lidx11_eq (i : S100000x512.Idx) (k : Fin 512) : lidx_main_v11 i k = ix2 (n0 := 100000) (n1 := 512) (i 0) k :=
  funext fun a => Fin.ext (by match a with | ⟨0, _⟩ => rfl | ⟨1, _⟩ => rfl)
/-- … and the right operand at (o, k). -/
theorem ridx0_eq (i : S100000x512.Idx) (k : Fin 512) : ridx_main_v0 i k = ix2 (n0 := 512) (n1 := 512) (i 1) k :=
  funext fun a => Fin.ext (by match a with | ⟨0, _⟩ => rfl | ⟨1, _⟩ => rfl)
theorem ridx11_eq (i : S100000x512.Idx) (k : Fin 512) : ridx_main_v11 i k = ix2 (n0 := 512) (n1 := 512) (i 1) k :=
  funext fun a => Fin.ext (by match a with | ⟨0, _⟩ => rfl | ⟨1, _⟩ => rfl)
/-- The length broadcast against entry (n, k) of z sums row n of z … -/
theorem zlen_idx_eq (j : S100000x512.Idx) (k' : Fin 512) :
    idx_main_call0_v1 (idx_main_call0_v2 (idx_main_v4 j)) k' = ix2 (n0 := 100000) (n1 := 512) (j 0) k' :=
  funext fun a => Fin.ext (by match a with | ⟨0, _⟩ => rfl | ⟨1, _⟩ => rfl)
/-- … and the one against entry (o, k) of w sums row o of w. -/
theorem wlen_idx_eq (j : S512x512.Idx) (k' : Fin 512) :
    idx_main_call1_v1 (idx_main_call1_v2 (idx_main_v9 j)) k' = ix2 (n0 := 512) (n1 := 512) (j 0) k' :=
  funext fun a => Fin.ext (by match a with | ⟨0, _⟩ => rfl | ⟨1, _⟩ => rfl)

/-- The length the reference divides entry `j` of z by is the clamped length of that entry's row. -/
theorem zlen_apply (x0 : (⟨S100000x512, .f32⟩ : BufTy).Contents (Elt Ideal)) (j : S100000x512.Idx) :
    val_main_v4 (F := Ideal) x0 j = clen (rowOf x0 (j 0)) := by
  rw [val_main_v4_apply, val_main_v3_apply, val_main_v1_apply, val_main_call0_v2_apply, val_main_call0_v1_apply,
    val_main_call0_cst_apply, val_main_v2_apply, val_main_cst_apply]
  unfold clen
  refine congrArg (fun s : EReal => max (Ideal.sqrt (Ideal.ofBits .f32 0x00000000#32 + s)) (Ideal.ofBits .f32 0x2B8CBCCC#32))
    (Finset.sum_congr rfl fun k _ => ?_)
  rw [val_main_call0_v0_apply, zlen_idx_eq]
  rfl

/-- Likewise for w. -/
theorem wlen_apply (x1 : (⟨S512x512, .f32⟩ : BufTy).Contents (Elt Ideal)) (j : S512x512.Idx) :
    val_main_v9 (F := Ideal) x1 j = clen (rowOf x1 (j 0)) := by
  rw [val_main_v9_apply, val_main_v8_apply, val_main_v6_apply, val_main_call1_v2_apply, val_main_call1_v1_apply,
    val_main_call1_cst_apply, val_main_v7_apply, val_main_cst_0_apply]
  unfold clen
  refine congrArg (fun s : EReal => max (Ideal.sqrt (Ideal.ofBits .f32 0x00000000#32 + s)) (Ideal.ofBits .f32 0x2B8CBCCC#32))
    (Finset.sum_congr rfl fun k _ => ?_)
  rw [val_main_call1_v0_apply, wlen_idx_eq]
  rfl

/-- The normalized z at an entry: the entry over its row's clamped length. -/
theorem znorm_apply (x0 : (⟨S100000x512, .f32⟩ : BufTy).Contents (Elt Ideal)) (j : S100000x512.Idx) :
    val_main_v5 (F := Ideal) x0 j = Ideal.div (x0 j) (clen (rowOf x0 (j 0))) := by
  rw [val_main_v5_apply, zlen_apply]
  rfl

/-- The normalized w at an entry. -/
theorem wnorm_apply (x1 : (⟨S512x512, .f32⟩ : BufTy).Contents (Elt Ideal)) (j : S512x512.Idx) :
    val_main_v10 (F := Ideal) x1 j = Ideal.div (x1 j) (clen (rowOf x1 (j 0))) := by
  rw [val_main_v10_apply, wlen_apply]
  rfl

/-- The reference's result at entry `i` is the law's reference-side form of the two rows. -/
theorem ref_apply (x0 : (⟨S100000x512, .f32⟩ : BufTy).Contents (Elt Ideal)) (x1 : (⟨S512x512, .f32⟩ : BufTy).Contents (Elt Ideal))
    (i : S100000x512.Idx) :
    val_main_v15 (F := Ideal) x0 x1 i = scaledR (rowOf x0 (i 0)) (rowOf x1 (i 1)) := by
  rw [val_main_v15_apply, val_main_v14_apply, val_main_v13_apply, val_main_cst_1_apply, val_main_v12_apply,
    val_main_v11_apply, val_main_v0_apply]
  have h1 : (∑ k : Fin 512, x0 (lidx_main_v0 i k) * x1 (ridx_main_v0 i k)) = dotp (rowOf x0 (i 0)) (rowOf x1 (i 1)) :=
    Finset.sum_congr rfl fun k _ => by rw [lidx0_eq, ridx0_eq]; rfl
  have h2 : (∑ k : Fin 512, val_main_v5 (F := Ideal) x0 (lidx_main_v11 i k) * val_main_v10 (F := Ideal) x1 (ridx_main_v11 i k))
      = ∑ k : Fin 512, Ideal.div (rowOf x0 (i 0) k) (clen (rowOf x0 (i 0))) * Ideal.div (rowOf x1 (i 1) k) (clen (rowOf x1 (i 1))) :=
    Finset.sum_congr rfl fun k _ => by rw [znorm_apply, wnorm_apply, lidx11_eq, ridx11_eq]; rfl
  rw [h1, h2]
  rfl

end Cert.CosScale

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.Payload.lean ====
/-
  The kernel body's one stored value, read at entry (p, q) of a block. With x the block of 4000 rows of z, y the
  transposed second matrix [512, 512] and r the row [1, 512] of reciprocal lengths the body loads:
  the matrix product at (p, q) is L = Σ_k x[p,k]·y[k,q]; the lane sum of x·x at row p, cast to a column, square-rooted,
  clamped and inverted, then broadcast along the lanes, is 1/a with a the clamped length of row p of x; the row r
  broadcast down the sublanes is r[0,q]. So the stored value is L · ((|L| · (1/a)) · r[0,q]).
-/
import proofs.«137916_j36429912604727_2_alg».proof.Proof.Gen.KernelIdeal.Skeleton
import proofs.«137916_j36429912604727_2_alg».proof.Proof.Spec
import proofs.«137916_j36429912604727_2_alg».proof.Proof.LibPlainMatmul
import proofs.«137916_j36429912604727_2_alg».proof.Proof.LibRowSoftmax
import proofs.«137916_j36429912604727_2_alg».proof.Proof.LibColRowBroadcast
import Idealize.ShloMosaic.Lib.Pipeline.Value
import Idealize.ShloMosaic.PureOps.Ideal.Laws

noncomputable section

open scoped BigOperators

namespace Cert.CosScale

open Cert.KernelIdeal Cert.KernelIdeal.Gen Idealize.ShloMosaic Idealize.ShloMosaic.ValueIdx

/-- Column `q` of a matrix. -/
def colOf {K N : ℕ} (x : (⟨2, ![K, N]⟩ : Shape).Idx → EReal) (q : Fin N) : Fin K → EReal := fun k => x (ix2 k q)

/-- The magnitude of a vector at an entry is the magnitude of the entry. -/
theorem absf_at {s : Shape} {φ : FTy} (a : FVec Ideal s φ) (i : s.Idx) : absf a i = max (a i) (-(a i)) := rfl

/-- The body's matrix product at (p, q): row p of the block against column q of the loaded matrix. -/
theorem lin_apply (v0 : Vec Ideal S4000x512 .f32) (v1 : Vec Ideal S512x512 .f32) (p : Fin 4000) (q : Fin 512) :
    matmul (F := Ideal) (φ₁ := .f32) (φ₂ := .f32) dot_S4000x512_S512x512_S4000x512_1_0_0_1_n_n (some .fp32) v0 (shapeCast S512x512 v1 shapeCasts_S512x512_S512x512)
      (constant (F := Ideal) S4000x512 .f32 0x00000000#32) (ix2 p q) = dotp (rowOf v0 p) (colOf v1 q) := by
  rw [shapeCast_self]
  exact Cert.PlainMatmul.matmul_zero_apply 4000 512 512 (some .fp32) v0 v1 p q

/-- The reciprocal of the clamped length of row p of the block, broadcast along the lanes, at (p, q). -/
theorem invlen_apply (v0 : Vec Ideal S4000x512 .f32) (p : Fin 4000) (q : Fin 512) :
    broadcastTo S4000x512
      (divf (F := Ideal) (broadcast S4000x1 (FloatOps.ofBits (F := Ideal) .f32 0x3F800000#32))
        (maximumf (F := Ideal) (sqrt (F := Ideal) (shapeCast S4000x1
            (multiReduction (F := Ideal) .add [1] S4000 (mulf (F := Ideal) v0 v0) 0x00000000#32 reduces_S4000x512_S4000 (.inl rfl) rfl) shapeCasts_S4000_S4000x1))
          (broadcast S4000x1 (FloatOps.ofBits (F := Ideal) .f32 0x2B8CBCCC#32))))
      broadcasts_S4000x1_S4000x512 (ix2 p q)
      = Ideal.div (Ideal.ofBits .f32 0x3F800000#32) (clen (rowOf v0 p)) := by
  rw [Cert.ColRowBroadcast.colBroadcast_apply]
  show Ideal.div (Ideal.ofBits .f32 0x3F800000#32)
      (max (Ideal.sqrt (shapeCast S4000x1
        (multiReduction (F := Ideal) .add [1] S4000 (mulf (F := Ideal) v0 v0) 0x00000000#32 reduces_S4000x512_S4000 (.inl rfl) rfl) shapeCasts_S4000_S4000x1
        (ix2 p (0 : Fin 1)))) (Ideal.ofBits .f32 0x2B8CBCCC#32)) = _
  rw [Cert.ColRowBroadcast.colCast_apply]
  have hs : multiReduction (F := Ideal) .add [1] S4000 (mulf (F := Ideal) v0 v0) 0x00000000#32 reduces_S4000x512_S4000 (.inl rfl) rfl (ix1 p)
      = ∑ k : Fin 512, v0 (ix2 p k) * v0 (ix2 p k) :=
    Cert.RowSoftmax.laneSum_apply (a := 4000) (b := 512) (mulf (F := Ideal) v0 v0) reduces_S4000x512_S4000 (.inl rfl) rfl p
  unfold clen
  rw [Ideal.ofBits_zero_f32, zero_add]
  exact congrArg (fun s : EReal => Ideal.div (Ideal.ofBits .f32 0x3F800000#32) (max (Ideal.sqrt s) (Ideal.ofBits .f32 0x2B8CBCCC#32))) hs

/-- The loaded row of reciprocal lengths, broadcast down the sublanes, at (p, q). -/
theorem wrow_apply (v3 : Vec Ideal S1x512 .f32) (p : Fin 4000) (q : Fin 512) :
    broadcastTo S4000x512 (shapeCast S1x512 v3 shapeCasts_S1x512_S1x512) broadcasts_S1x512_S4000x512 (ix2 p q)
      = v3 (ix2 (0 : Fin 1) q) := by
  rw [shapeCast_self, Cert.ColRowBroadcast.rowBroadcast_apply]

/-- THE STORED VALUE at (p, q). -/
theorem pay_apply (v0 : Vec Ideal S4000x512 .f32) (v1 : Vec Ideal S512x512 .f32) (v3 : Vec Ideal S1x512 .f32)
    (p : Fin 4000) (q : Fin 512) :
    k0_pay1 (F := Ideal) v0 v1 v3 (ix2 p q)
      = dotp (rowOf v0 p) (colOf v1 q)
        * ((max (dotp (rowOf v0 p) (colOf v1 q)) (-(dotp (rowOf v0 p) (colOf v1 q)))
            * Ideal.div (Ideal.ofBits .f32 0x3F800000#32) (clen (rowOf v0 p)))
          * v3 (ix2 (0 : Fin 1) q)) := by
  unfold k0_pay1
  dsimp only
  rw [mulf_apply, mulf_apply, mulf_apply, absf_at, lin_apply, invlen_apply, wrow_apply]

end Cert.CosScale

end
-- ==== Proof.HostPrologue.lean ====
/-
  What the region finds in the two arrays the host computes before it, read at one entry, w being the second argument
  as launched. The transposed matrix at (k, q) is w[q,k]. The row of reciprocal lengths at (0, q) is 1/b with b the
  clamped length of row q of w: the host squares w, sums each row from 0, takes the root, clamps it from below,
  divides 1 by it, and re-lays the 512 results as a row [1, 512].
-/
import proofs.«137916_j36429912604727_2_alg».proof.Proof.Gen.KernelIdeal.Frame
import proofs.«137916_j36429912604727_2_alg».proof.Proof.Spec
import proofs.«137916_j36429912604727_2_alg».proof.Proof.LibColRowBroadcast
import Idealize.ShloMosaic.Lib.StableHlo.Run
import Idealize.ShloMosaic.Lib.Pipeline.Value
import Idealize.ShloMosaic.PureOps.Ideal.Laws

noncomputable section

open scoped BigOperators

namespace Cert.CosScale

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The second argument as launched, on core `c`. -/
abbrev argW (c : Dev nD) : S512x512.Idx → EReal := m ((c : Thread nD τ).loc main_arg1)

/-- The region finds the second argument transposed in its second window's array. -/
theorem V_wt (c : Dev nD) :
    (V m c main_v8 : S512x512.Idx → EReal) = transpose S512x512 [1, 0] (argW m c) transposes_S512x512_S512x512_1_0 := by
  dsimp only [V, hostOps0]
  after_results

/-- The transposed matrix at (k, q) is the argument at (q, k). -/
theorem wt_apply (c : Dev nD) (k q : Fin 512) : (V m c main_v8 : S512x512.Idx → EReal) (ix2 k q) = argW m c (ix2 q k) := by
  rw [V_wt]
  refine transpose_apply [1, 0] (argW m c) transposes_S512x512_S512x512_1_0 (ix2 k q) (ix2 q k) fun b => ?_
  match b with
  | ⟨0, _⟩ => rfl
  | ⟨1, _⟩ => rfl

/-- The region finds, in its third window's array, the reciprocals of the clamped row lengths re-laid as a row. -/
theorem V_winv (c : Dev nD) :
    (V m c main_v7 : S1x512.Idx → EReal)
      = shapeCast S1x512
          (Host.divf (F := Ideal) (broadcastInDim S512 ![] bcast_S_S512 (constant (F := Ideal) S_ .f32 0x3F800000#32))
            (maximumf (F := Ideal)
              (Host.sqrt (F := Ideal) (Host.reduceAdd (F := Ideal) (mulf (F := Ideal) (argW m c) (argW m c))
                (constant (F := Ideal) S_ .f32 0x00000000#32) reducesTo_S512x512_S512_d1 h_S_))
              (broadcastInDim S512 ![] bcast_S_S512 (constant (F := Ideal) S_ .f32 0x2B8CBCCC#32))))
          shapeCasts_S512_S1x512 := by
  dsimp only [V, hostOps0]
  after_results
  rfl

/-- The row at (0, q) is 1 over the clamped length of row q of the argument. -/
theorem winv_apply (c : Dev nD) (q : Fin 512) :
    (V m c main_v7 : S1x512.Idx → EReal) (ix2 (0 : Fin 1) q)
      = Ideal.div (Ideal.ofBits .f32 0x3F800000#32) (clen (rowOf (argW m c) q)) := by
  rw [V_winv, Cert.ColRowBroadcast.rowCast_apply]
  have hb : ∀ w : BitVec 32, broadcastInDim S512 ![] bcast_S_S512 (constant (F := Ideal) S_ .f32 w) (ix1 q) = Ideal.ofBits .f32 w :=
    fun w => broadcastInDim_apply _ bcast_S_S512 (constant (F := Ideal) S_ .f32 w) (ix1 q) ix0 (fun a => a.elim0)
  have hs : Host.reduceAdd (F := Ideal) (mulf (F := Ideal) (argW m c) (argW m c)) (constant (F := Ideal) S_ .f32 0x00000000#32)
        reducesTo_S512x512_S512_d1 h_S_ (ix1 q)
      = Ideal.ofBits .f32 0x00000000#32 + ∑ k : Fin 512, argW m c (ix2 q k) * argW m c (ix2 q k) := by
    simp only [Host.reduceAdd, Ideal.hostReduceAdd_def]
    rw [Ideal.hostReduceAdd_single reducesTo_S512x512_S512_d1 (by decide)]
    refine congrArg (_ + ·) (Finset.sum_congr rfl fun k _ => ?_)
    exact congrArg (mulf (F := Ideal) (argW m c) (argW m c))
      (funext fun a => Fin.ext (by match a with | ⟨0, _⟩ => rfl | ⟨1, _⟩ => rfl))
  show Ideal.div (broadcastInDim S512 ![] bcast_S_S512 (constant (F := Ideal) S_ .f32 0x3F800000#32) (ix1 q))
      (max (Ideal.sqrt (Host.reduceAdd (F := Ideal) (mulf (F := Ideal) (argW m c) (argW m c)) (constant (F := Ideal) S_ .f32 0x00000000#32)
        reducesTo_S512x512_S512_d1 h_S_ (ix1 q)))
        (broadcastInDim S512 ![] bcast_S_S512 (constant (F := Ideal) S_ .f32 0x2B8CBCCC#32) (ix1 q))) = _
  rw [hb, hb, hs]
  rfl

end Cert.CosScale

end
-- ==== Proof.Blocks.lean ====
/-
  From what one grid point writes to the whole result array. The grid has 25 points; point t loads rows
  4000·t … 4000·t + 3999 of z, the whole transposed second matrix and the whole row of reciprocal lengths, and writes
  back rows 4000·t … 4000·t + 3999 of the result. Entry (p, q) of what it writes is the stored value of the body, which
  with the host's two arrays read back is the specification at (4000·t + p, q). The 25 blocks of 4000 rows cover
  all 100000 rows (row n lies in block n / 4000), so after the run the result array IS the specification.
-/
import proofs.«137916_j36429912604727_2_alg».proof.Proof.Gen.KernelIdeal.Value
import proofs.«137916_j36429912604727_2_alg».proof.Proof.Payload
import proofs.«137916_j36429912604727_2_alg».proof.Proof.HostPrologue
import Idealize.ShloMosaic.Lib.Pipeline.Value
import Idealize.ShloMosaic.Lib.Tactic

noncomputable section

open scoped BigOperators

namespace Cert.CosScale

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The first argument as launched, on core `c`. -/
abbrev argZ (c : Dev nD) : S100000x512.Idx → EReal := m ((c : Thread nD τ).loc main_arg0)

theorem zero_off : (![0, 0] : Fin 2 → Nat) = fun _ => 0 := funext fun a => by fin_cases a <;> rfl

/-- The stored value of the body at (p, q), when its three loads are row block n−p … of z, the transposed w and the
    reciprocal lengths of w's rows: the specification at (n, q). -/
theorem block_entry (Zc : S100000x512.Idx → EReal) (Wc : S512x512.Idx → EReal)
    (x0 : Vec Ideal S4000x512 .f32) (x1 : Vec Ideal S512x512 .f32) (x2 : Vec Ideal S1x512 .f32)
    (p : Fin 4000) (q : Fin 512) (n : Fin 100000)
    (h0 : ∀ k : Fin 512, x0 (ix2 p k) = Zc (ix2 n k))
    (h1 : ∀ k : Fin 512, x1 (ix2 k q) = Wc (ix2 q k))
    (h2 : x2 (ix2 (0 : Fin 1) q) = Ideal.div (Ideal.ofBits .f32 0x3F800000#32) (clen (rowOf Wc q))) :
    k0_pay1 (F := Ideal) x0 x1 x2 (ix2 p q) = spec Zc Wc (ix2 n q) := by
  have r0 : rowOf x0 p = rowOf Zc n := funext h0
  have r1 : colOf x1 q = rowOf Wc q := funext h1
  rw [pay_apply, h2, r0, r1]
  rfl

/-- The printed index maps over the grid: the first window and the result move one block of rows per point, the other
    two windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point t is rows 4000·t … of z. -/
theorem zblk_apply (c : Dev nD) (t : Fin cfg0.N) (p : Fin 4000) (k : Fin 512) (n : Fin 100000) (hn : n.val = t.val * 4000 + p.val) :
    (iblk m c 0 t : Vec Ideal S4000x512 .f32) (ix2 p k) = argZ m c (ix2 n k) := by
  obtain ⟨e0, e1, -⟩ := idx_facts t
  unfold iblk
  rw [View.read_apply]
  refine (congrFun (V_main_arg0 m c) _).trans ?_
  refine congrArg (argZ m c) (funext fun a => Fin.ext ?_)
  match a with
  | ⟨0, _⟩ => show win0_0.index t (0 : Fin 2) * 4000 + 1 * p.val = n.val; rw [e0, hn]; omega
  | ⟨1, _⟩ => show win0_0.index t (1 : Fin 2) * 512 + 1 * k.val = k.val; rw [e1]; omega

/-- The second window's block at any point is the whole transposed matrix. -/
theorem wtblk_apply (c : Dev nD) (t : Fin cfg0.N) (k q : Fin 512) :
    (iblk m c 1 t : Vec Ideal S512x512 .f32) (ix2 k q) = (V m c main_v8 : S512x512.Idx → EReal) (ix2 k q) := by
  obtain ⟨-, -, e2, e3, -⟩ := idx_facts t
  unfold iblk
  rw [View.read_apply]
  refine congrArg (V m c main_v8 : S512x512.Idx → EReal) (funext fun a => Fin.ext ?_)
  match a with
  | ⟨0, _⟩ => show win0_1.index t (0 : Fin 2) * 512 + 1 * k.val = k.val; rw [e2]; omega
  | ⟨1, _⟩ => show win0_1.index t (1 : Fin 2) * 512 + 1 * q.val = q.val; rw [e3]; omega

/-- The third window's block at any point is the whole row of reciprocal lengths. -/
theorem winvblk_apply (c : Dev nD) (t : Fin cfg0.N) (q : Fin 512) :
    (iblk m c 2 t : Vec Ideal S1x512 .f32) (ix2 (0 : Fin 1) q) = (V m c main_v7 : S1x512.Idx → EReal) (ix2 (0 : Fin 1) q) := by
  obtain ⟨-, -, -, -, e4, e5, -⟩ := idx_facts t
  unfold iblk
  rw [View.read_apply]
  refine congrArg (V m c main_v7 : S1x512.Idx → EReal) (funext fun a => Fin.ext ?_)
  match a with
  | ⟨0, _⟩ => show win0_2.index t (0 : Fin 2) * 1 + 1 * (0 : Fin 1).val = (0 : Fin 1).val; rw [e4]; simp
  | ⟨1, _⟩ => show win0_2.index t (1 : Fin 2) * 512 + 1 * q.val = q.val; rw [e5]; omega

/-- WHAT POINT t WRITES BACK is block t of the specification of the two arguments. -/
theorem flushed_eq (c : Dev nD) (t : Fin cfg0.N) :
    (dats m 0 c).flushed 3 t = ((cfg0.win 3).blk t).view.read (Elt Ideal) (spec (argZ m c) (argW m c)) := by
  rw [Cert.KernelIdeal.Value.flushed3]
  unfold out0_3
  rw [View.canon_unit_zero zero_off]
  simp only [View.ld_unit_zero (S := S4000x512) zero_off, View.ld_unit_zero (S := S512x512) zero_off,
    View.ld_unit_zero (S := S1x512) zero_off]
  obtain ⟨-, -, -, -, -, -, e6, e7⟩ := idx_facts t
  have hN : cfg0.N = 25 := N_0
  funext j
  obtain ⟨p, q, rfl⟩ : ∃ (p : Fin 4000) (q : Fin 512), j = ix2 p q := ⟨j 0, j 1, eq_ix2 j⟩
  have hn : t.val * 4000 + p.val < 100000 := by have := t.isLt; have := p.isLt; omega
  show k0_pay1 (F := Ideal) (iblk m c 0 t) (iblk m c 1 t) (iblk m c 2 t) (ix2 p q)
      = spec (argZ m c) (argW m c) (((cfg0.win 3).blk t).view.emb (ix2 p q))
  refine (block_entry (argZ m c) (argW m c) (iblk m c 0 t) (iblk m c 1 t) (iblk m c 2 t) p q ⟨t.val * 4000 + p.val, hn⟩
    (fun k => zblk_apply m c t p k ⟨t.val * 4000 + p.val, hn⟩ rfl)
    (fun k => (wtblk_apply m c t k q).trans (wt_apply m c k q))
    ((winvblk_apply m c t q).trans (winv_apply m c q))).trans ?_
  refine congrArg (spec (argZ m c) (argW m c)) (funext fun a => Fin.ext ?_)
  match a with
  | ⟨0, _⟩ => show t.val * 4000 + p.val = win0_3.index t (0 : Fin 2) * 4000 + 1 * p.val; rw [e6]; omega
  | ⟨1, _⟩ => show q.val = win0_3.index t (1 : Fin 2) * 512 + 1 * q.val; rw [e7]; omega

/-- An index of the result array is in point t's block iff each coordinate is in the block's range on its axis. -/
theorem mem_blk (t : Fin cfg0.N) (i : S100000x512.Idx) :
    i ∈ ((cfg0.win 3).blk t).view.set ↔ ∀ a : Fin 2, win0_3.index t a * S4000x512.size a ≤ (i a).val
      ∧ (i a).val < win0_3.index t a * S4000x512.size a + S4000x512.size a := by
  show i ∈ ((View.whole main_v9).slice (win0_3.rect t)).set ↔ _
  rw [View.set_slice_whole, Rect.mem_set_unit]
  exact Iff.rfl

/-- Every index of the result array is in some point's block: row n in block n / 4000. -/
theorem covered (i : S100000x512.Idx) :
    ∃ t : Fin cfg0.N, (cfg0.win 3).flush t = true ∧ i ∈ ((cfg0.win 3).blk t).view.set := by
  have hi0 : (i 0).val < 100000 := (i 0).isLt
  have hi1 : (i 1).val < 512 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    rw [e6, ht]; omega
  | ⟨1, _⟩ =>
    show win0_3.index t (1 : Fin 2) * 512 ≤ (i 1).val ∧ (i 1).val < win0_3.index t (1 : Fin 2) * 512 + 512
    rw [e7]; omega

/-- THE RESULT ARRAY after the run is the specification of the two arguments. -/
theorem final (c : Dev nD) : (dats m 0 c).arrAt 3 cfg0.N = spec (argZ m c) (argW m c) :=
  (dats m 0 c).arrAt_eq_of_cover 3 (spec (argZ m c) (argW m c)) (fun t _ => flushed_eq m c t) covered

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v9) = spec (argZ m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.CosScale

end
-- ==== Proof.LibSingletonSoftmax.lean ====
/-
  The softmax over ONE element, on the extended reals. Over an axis of extent one, the softmax weight of a score `x` is
  `exp (x - max) / sum`, where `max` is the maximum of the one score `x` taken from minus infinity and `sum` is the sum
  of the one shifted exponential. At a FINITE score `x = r` the maximum is `r`, the shift `r - r` is `0`, its exponential
  is `1`, the sum is `1` and the quotient `1 / 1` is `1`: the weight is `1`. (At an infinite score the shift `x - x` is
  not `0`, which is why finiteness is needed.) With it: a maximum and a sum over an index set of one element, and the
  reading of "the absolute value is below plus infinity" as "is a real number".
-/
import Idealize.ShloMosaic.PureOps.Ideal
import Idealize.ShloMosaic.PureOps.Ideal.Laws

noncomputable section

namespace SingletonSoftmax

open Idealize.ShloMosaic

/-- The f32 word of minus infinity is the bottom of the extended reals. -/
theorem negInf_eq_bot : Ideal.ofBits .f32 0xFF800000#32 = ⊥ := by simp [Ideal.ofBits, Ideal.ieee]

/-- The exponential of a finite score shifted by itself is `1`. -/
theorem exp_sub_self (r : ℝ) : Ideal.exp ((r : EReal) - (r : EReal)) = 1 := by
  rw [← EReal.coe_sub, Ideal.exp_coe, sub_self, Real.exp_zero, EReal.coe_one]

/-- `1 / 1 = 1` for the division of the extended reals. -/
theorem div_one_one : Ideal.div 1 1 = 1 := by
  have h := Ideal.div_coe (y := (1 : ℝ)) one_ne_zero (1 : EReal)
  rw [EReal.coe_one] at h
  rw [h, one_mul, one_div, inv_one, EReal.coe_one]

/-- The maximum of one finite score, taken from minus infinity and then compared with minus infinity once more
    (the two steps a softmax's running maximum makes), is the score. -/
theorem max_single (r : ℝ) : max (⊥ : EReal) (max (r : EReal) ⊥) = r := by
  rw [max_bot_right, max_bot_left]

/-- THE WEIGHT OF A SINGLE FINITE SCORE IS ONE, in the form where the sum of the one shifted exponential starts from
    nothing. -/
theorem weight_single (r : ℝ) :
    Ideal.div (Ideal.exp ((r : EReal) - max (⊥ : EReal) (max (r : EReal) ⊥)))
      (Ideal.exp ((r : EReal) - max (⊥ : EReal) (max (r : EReal) ⊥))) = 1 := by
  rw [max_single, exp_sub_self, div_one_one]

/-- The same in the form where the sum starts from an explicit zero. -/
theorem weight_single_zero (r : ℝ) :
    Ideal.div (Ideal.exp ((r : EReal) - max (⊥ : EReal) (max (r : EReal) ⊥)))
      (0 + Ideal.exp ((r : EReal) - max (⊥ : EReal) (max (r : EReal) ⊥))) = 1 := by
  rw [zero_add, weight_single]

/-- A maximum folded over an index set of one element, from `b`, is that element's value against `b`. -/
theorem fold_max_one {n : Nat} (hn : n = 1) (b : EReal) (f : Fin n → EReal) :
    (Finset.univ : Finset (Fin n)).fold max b f = max (f ⟨0, by omega⟩) b := by
  subst hn
  rw [Finset.univ_unique, Finset.fold_singleton]
  rfl

/-- A sum over an index set of one element is that element's value. -/
theorem sum_one {n : Nat} (hn : n = 1) (f : Fin n → EReal) : ∑ k : Fin n, f k = f ⟨0, by omega⟩ := by
  subst hn
  rw [Finset.univ_unique, Finset.sum_singleton]
  rfl

/-- An extended real whose absolute value `max x (-x)` is below plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end SingletonSoftmax

end
-- ==== Proof.Finite.lean ====
/-
  From the precondition to "every entry of both arguments is a real number". The precondition is the conjunction of
  two all-reductions, one per argument, of the comparison |x| < +∞ entry by entry; an all-reduction that is true is true
  at every entry, and an extended real whose magnitude is below +∞ is neither infinity.
-/
import proofs.«137916_j36429912604727_2_alg».proof.Pre_finite_inputs
import proofs.«137916_j36429912604727_2_alg».proof.Proof.LibSingletonSoftmax
import Idealize.ShloMosaic.Lib.ReduceAll
import Idealize.ShloMosaic.Lib.Affine
import Idealize.ShloMosaic.Lib.ValueIdx
import Idealize.ShloMosaic.PureOps.Ideal.Laws

noncomputable section

namespace Cert.CosScale

open Idealize.ShloMosaic Cert.Pre_finite_inputs

instance : Subsingleton S_.Idx := ⟨fun a b => funext fun d => d.elim0⟩

/-- Under the precondition every entry of either argument is a real number. -/
theorem real_of_pre [hP : Cert.Pre_finite_inputs.Facts] (z : FVec Ideal S100000x512 .f32) (w : FVec Ideal S512x512 .f32)
    (h : Cert.Pre_finite_inputs.fn (F := Ideal) z w = fun _ => 1#1) :
    (∀ i : S100000x512.Idx, ∃ r : ℝ, z i = (r : EReal)) ∧ (∀ i : S512x512.Idx, ∃ r : ℝ, w i = (r : EReal)) := by
  have h0 := congrFun h ValueIdx.ix0
  dsimp only [Cert.Pre_finite_inputs.fn] at h0
  obtain ⟨hz, hw⟩ := IntOp.andi_eq_one.mp h0
  exact ⟨fun i => SingletonSoftmax.real_of_abs_lt_top (z i) (Host.reduce_andi_all _ _ _ _ _ hz i),
    fun i => SingletonSoftmax.real_of_abs_lt_top (w i) (Host.reduce_andi_all _ _ _ _ _ hw i)⟩

end Cert.CosScale

end
-- ==== Proof.lean ====
/-
  A fused cosine-scaled linear layer against its two-product reference, on the extended reals.

  For z of shape [100000, 512] and w of shape [512, 512], write L[n,o] = Σ_k z[n,k]·w[o,k], and a_n, b_o for the
  lengths of row n of z and row o of w clamped from below by ε (the f32 nearest 1e-12).
    The kernel computes L once per block of 4000 rows and scales it by the magnitude of the cosine taken FROM L:
        out[n,o] = L · ((|L| · (1/a_n)) · (1/b_o)),
    with 1/b_o computed on the host beforehand and w transposed there.
    The reference normalizes both matrices first, forms a second product, and raises its magnitude to the power 1:
        out[n,o] = L · |Σ_k (z[n,k]/a_n)·(w[o,k]/b_o)| ^ 1.
  Under the precondition every entry is a real number, so a_n and b_o are positive reals, the two reciprocals leave the
  sum, and the two expressions are one number (Proof/CosineLaw.lean). The ideal pass rewrote nothing in the kernel, so
  the word-level kernel's sanctioned idealization is its own text. Each program's frame is its generated run.

  Modules: Consts (the three float words as reals), CosineLaw (the law), Spec (the result as one function of the
  arguments), RefRead (the reference at an entry), Payload (the body's stored value at an entry), HostPrologue (the two
  host-computed arrays at an entry), Blocks (from one point's block to the whole array), Finite (real entries from the
  precondition).
-/
import proofs.«137916_j36429912604727_2_alg».proof.Defs
import proofs.«137916_j36429912604727_2_alg».proof.Proof.Gen.Kernel
import proofs.«137916_j36429912604727_2_alg».proof.Proof.Gen.Kernel.Skeleton
import proofs.«137916_j36429912604727_2_alg».proof.Proof.Gen.Kernel.Launch
import proofs.«137916_j36429912604727_2_alg».proof.Proof.Gen.Kernel.Points
import proofs.«137916_j36429912604727_2_alg».proof.Proof.Gen.Kernel.Frame
import proofs.«137916_j36429912604727_2_alg».proof.Proof.Gen.KernelIdeal
import proofs.«137916_j36429912604727_2_alg».proof.Proof.Gen.KernelIdeal.Skeleton
import proofs.«137916_j36429912604727_2_alg».proof.Proof.Gen.KernelIdeal.Launch
import proofs.«137916_j36429912604727_2_alg».proof.Proof.Gen.KernelIdeal.Points
import proofs.«137916_j36429912604727_2_alg».proof.Proof.Gen.KernelIdeal.Frame
import proofs.«137916_j36429912604727_2_alg».proof.Proof.Gen.ReferenceIdeal
import proofs.«137916_j36429912604727_2_alg».proof.Proof.Gen.Pre_finite_inputs
import proofs.«137916_j36429912604727_2_alg».proof.Proof.Gen.KernelIdeal.Value
import proofs.«137916_j36429912604727_2_alg».proof.Proof.Gen.ReferenceIdeal.Run
import proofs.«137916_j36429912604727_2_alg».proof.Proof.Gen.ReferenceIdeal.Read
import proofs.«137916_j36429912604727_2_alg».proof.Proof.CosineLaw
import proofs.«137916_j36429912604727_2_alg».proof.Proof.RefRead
import proofs.«137916_j36429912604727_2_alg».proof.Proof.Blocks
import proofs.«137916_j36429912604727_2_alg».proof.Proof.Finite
import Idealize.ShloMosaic.Adequacy
import Idealize.ShloMosaic.Init

noncomputable section

namespace Cert.Proof

open Idealize.ShloMosaic Idealize.SL.Sem

/-- The word-level kernel terminates without fault and leaves its arguments as launched. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the specification of the (agreeing) arguments: the kernel by its blocks,
    the reference entry by entry through the law, which the precondition's finiteness licenses. -/
theorem algebraic : Cert.algebraic_KernelIdeal_ReferenceIdeal := by
  intro m ρ m' ρ' hpre hagree
  refine ⟨fun c => Cert.CosScale.spec (Cert.CosScale.argZ m c) (Cert.CosScale.argW m c), Cert.CosScale.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  obtain ⟨hz, hw⟩ := Cert.CosScale.real_of_pre _ _ (hpre c)
  funext i
  rw [Cert.CosScale.ref_apply]
  exact Cert.CosScale.scaledR_eq_scaledK _ _ (fun k => hz _) (fun k => hw _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
